-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S600x100 : Shape := ⟨2, ![600, 100]⟩
abbrev S4096x100 : Shape := ⟨2, ![4096, 100]⟩
abbrev S50x100 : Shape := ⟨2, ![50, 100]⟩
abbrev S_ : Shape := ⟨0, ![]⟩

class Facts : Prop where
  bcast_S_S600x100 : S_.BroadcastsInDim S600x100 (![] : Fin 0 → Fin S600x100.rank)
  reducesTo_S600x100_S_d0_1 : S600x100.ReducesTo [0, 1] S_
  h_S_ : 0 < S_.numel
  bcast_S_S4096x100 : S_.BroadcastsInDim S4096x100 (![] : Fin 0 → Fin S4096x100.rank)
  reducesTo_S4096x100_S_d0_1 : S4096x100.ReducesTo [0, 1] S_
  bcast_S_S50x100 : S_.BroadcastsInDim S50x100 (![] : Fin 0 → Fin S50x100.rank)
  reducesTo_S50x100_S_d0_1 : S50x100.ReducesTo [0, 1] S_

variable [Facts]

def fn {F : FTy → Type} [FloatOps F] (main_arg0 : FVec F S600x100 .f32) (main_arg1 : FVec F S4096x100 .f32) (main_arg2 : FVec F S50x100 .f32) : IVec S_ 1 :=
  let main_v0 : FVec F S600x100 .f32 := Host.absf main_arg0
  let main_cst : FVec F S_ .f32 := constant S_ .f32 0x7F800000#32
  let main_v1 : FVec F S600x100 .f32 := broadcastInDim S600x100 ![] bcast_S_S600x100 main_cst
  let main_v2 : IVec S600x100 1 := cmpf .olt main_v0 main_v1
  let main_c : IVec S_ 1 := constantI S_ 1 1#1
  let main_v3 : IVec S_ 1 := (fun x v => Host.reduce IntOp.andi x v reducesTo_S600x100_S_d0_1 h_S_) main_v2 main_c
  let main_v4 : FVec F S4096x100 .f32 := Host.absf main_arg1
  let main_cst_0 : FVec F S_ .f32 := constant S_ .f32 0x7F800000#32
  let main_v5 : FVec F S4096x100 .f32 := broadcastInDim S4096x100 ![] bcast_S_S4096x100 main_cst_0
  let main_v6 : IVec S4096x100 1 := cmpf .olt main_v4 main_v5
  let main_c_1 : IVec S_ 1 := constantI S_ 1 1#1
  let main_v7 : IVec S_ 1 := (fun x v => Host.reduce IntOp.andi x v reducesTo_S4096x100_S_d0_1 h_S_) main_v6 main_c_1
  let main_v8 : IVec S_ 1 := andi main_v3 main_v7
  let main_v9 : FVec F S50x100 .f32 := Host.absf main_arg2
  let main_cst_2 : FVec F S_ .f32 := constant S_ .f32 0x7F800000#32
  let main_v10 : FVec F S50x100 .f32 := broadcastInDim S50x100 ![] bcast_S_S50x100 main_cst_2
  let main_v11 : IVec S50x100 1 := cmpf .olt main_v9 main_v10
  let main_c_3 : IVec S_ 1 := constantI S_ 1 1#1
  let main_v12 : IVec S_ 1 := (fun x v => Host.reduce IntOp.andi x v reducesTo_S50x100_S_d0_1 h_S_) main_v11 main_c_3
  let main_v13 : IVec S_ 1 := andi main_v8 main_v12
  main_v13
-- ==== Kernel.lean ====
abbrev S600x100 : Shape := ⟨2, ![600, 100]⟩
abbrev S4096x100 : Shape := ⟨2, ![4096, 100]⟩
abbrev S50x100 : Shape := ⟨2, ![50, 100]⟩
abbrev S600x204800 : Shape := ⟨2, ![600, 204800]⟩
abbrev S64x100 : Shape := ⟨2, ![64, 100]⟩
abbrev S600x3200 : Shape := ⟨2, ![600, 3200]⟩
abbrev S64x1x100 : Shape := ⟨3, ![64, 1, 100]⟩
abbrev S1x50x100 : Shape := ⟨3, ![1, 50, 100]⟩
abbrev S64x50x100 : Shape := ⟨3, ![64, 50, 100]⟩
abbrev S3200x100 : Shape := ⟨2, ![3200, 100]⟩
abbrev S600x4096x50 : Shape := ⟨3, ![600, 4096, 50]⟩

abbrev nBuf : Space → Nat
  | .hbm => 5
  | .vmem => 6
  | .smem => 0
  | _ => 0

abbrev bufTy : (tb : Table) → Fin (tcTables nBuf tb) → BufTy
  | .hbm, ⟨0, _⟩ => ⟨S600x100, .f32⟩
  | .hbm, ⟨1, _⟩ => ⟨S4096x100, .f32⟩
  | .hbm, ⟨2, _⟩ => ⟨S50x100, .f32⟩
  | .hbm, ⟨3, _⟩ => ⟨S600x204800, .f32⟩
  | .hbm, ⟨4, _⟩ => ⟨S600x4096x50, .f32⟩
  | .local _ .vmem, ⟨0, _⟩ => ⟨S600x100, .f32⟩
  | .local _ .vmem, ⟨1, _⟩ => ⟨S64x100, .f32⟩
  | .local _ .vmem, ⟨2, _⟩ => ⟨S64x100, .f32⟩
  | .local _ .vmem, ⟨3, _⟩ => ⟨S50x100, .f32⟩
  | .local _ .vmem, ⟨4, _⟩ => ⟨S600x3200, .f32⟩
  | .local _ .vmem, ⟨5, _⟩ => ⟨S600x3200, .f32⟩
  | _, _ => ⟨S600x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S600x100 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S64x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S50x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S600x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S600x100_S600x100_0_0 : ∀ a, (![0, 0] : Fin 2 → Nat) a + S600x100.size a ≤ S600x100.size a
  h_S600x100 : 0 < S600x100.numel
  inb_S64x100_S64x100_0_0 : ∀ a, (![0, 0] : Fin 2 → Nat) a + S64x100.size a ≤ S64x100.size a
  h_S64x100 : 0 < S64x100.numel
  inb_S50x100_S50x100_0_0 : ∀ a, (![0, 0] : Fin 2 → Nat) a + S50x100.size a ≤ S50x100.size a
  h_S50x100 : 0 < S50x100.numel
  shapeCasts_S64x100_S64x1x100 : S64x100.ShapeCasts S64x1x100
  shapeCasts_S50x100_S1x50x100 : S50x100.ShapeCasts S1x50x100
  broadcasts_S64x1x100_S64x50x100 : S64x1x100.Broadcasts S64x50x100
  broadcasts_S1x50x100_S64x50x100 : S1x50x100.Broadcasts S64x50x100
  shapeCasts_S64x50x100_S3200x100 : S64x50x100.ShapeCasts S3200x100
  inb_S600x3200_S600x3200_0_0 : ∀ a, (![0, 0] : Fin 2 → Nat) a + S600x3200.size a ≤ S600x3200.size a
  h_S600x3200 : 0 < S600x3200.numel
  shapeCasts_S600x204800_S600x4096x50 : S600x204800.ShapeCasts S600x4096x50
  dot_S600x100_S3200x100_S600x3200_1_1_0_0_n_n_wf : DotDims.WF S600x100 S3200x100 S600x3200 [1] [1] [0] [0] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S600x100.size a ≤ S600x100.size a
  hwx0_0 : ∀ i : grid0.Coords, EltTy.bits .f32 = 32 ∨ (Rect.block (s := S600x100) S600x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x100.size a ≤ S4096x100.size a
  hwx0_1 : ∀ i : grid0.Coords, EltTy.bits .f32 = 32 ∨ (Rect.block (s := S4096x100) S64x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x100.size a ≤ S50x100.size a
  hwx0_2 : ∀ i : grid0.Coords, EltTy.bits .f32 = 32 ∨ (Rect.block (s := S50x100) S50x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S600x3200.size a ≤ S600x204800.size a
  hwx0_3 : ∀ i : grid0.Coords, EltTy.bits .f32 = 32 ∨ (Rect.block (s := S600x204800) S600x3200.size (cc0_transform_3 i) (hinb0_3 i)).WholeWords (EltTy.packing .f32)

variable [Facts₀]

def dot_S600x100_S3200x100_S600x3200_1_1_0_0_n_n : DotDims S600x100 S3200x100 S600x3200 where
  lhsContracting := [1]
  rhsContracting := [1]
  lhsNonContracting := [0]
  rhsNonContracting := [0]
  lhsBatch := []
  rhsBatch := []
  wf := dot_S600x100_S3200x100_S600x3200_1_1_0_0_n_n_wf

abbrev win0_0 : Pipeline.Window sig grid0 :=
  Pipeline.Window.ofSpec (Memref.whole main_arg0) S600x100.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S50x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S600x3200.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S600x100 : Shape := ⟨2, ![600, 100]⟩
abbrev S4096x100 : Shape := ⟨2, ![4096, 100]⟩
abbrev S50x100 : Shape := ⟨2, ![50, 100]⟩
abbrev S4096x1x100 : Shape := ⟨3, ![4096, 1, 100]⟩
abbrev S1x50x100 : Shape := ⟨3, ![1, 50, 100]⟩
abbrev S4096x50x100 : Shape := ⟨3, ![4096, 50, 100]⟩
abbrev S600x4096x50 : Shape := ⟨3, ![600, 4096, 50]⟩

abbrev nBuf : Space → Nat
  | .hbm => 9
  | .vmem => 0
  | .smem => 0
  | _ => 0

abbrev bufTy : (tb : Table) → Fin (tcTables nBuf tb) → BufTy
  | .hbm, ⟨0, _⟩ => ⟨S600x100, .f32⟩
  | .hbm, ⟨1, _⟩ => ⟨S4096x100, .f32⟩
  | .hbm, ⟨2, _⟩ => ⟨S50x100, .f32⟩
  | .hbm, ⟨3, _⟩ => ⟨S4096x1x100, .f32⟩
  | .hbm, ⟨4, _⟩ => ⟨S1x50x100, .f32⟩
  | .hbm, ⟨5, _⟩ => ⟨S4096x50x100, .f32⟩
  | .hbm, ⟨6, _⟩ => ⟨S4096x50x100, .f32⟩
  | .hbm, ⟨7, _⟩ => ⟨S4096x50x100, .f32⟩
  | .hbm, ⟨8, _⟩ => ⟨S600x4096x50, .f32⟩
  | _, _ => ⟨S600x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S4096x100_S4096x1x100_0_2 : S4096x100.BroadcastsInDim S4096x1x100 (![0, 2] : Fin 2 → Fin S4096x1x100.rank)
  bcast_S50x100_S1x50x100_1_2 : S50x100.BroadcastsInDim S1x50x100 (![1, 2] : Fin 2 → Fin S1x50x100.rank)
  bcast_S4096x1x100_S4096x50x100_0_1_2 : S4096x1x100.BroadcastsInDim S4096x50x100 (![0, 1, 2] : Fin 3 → Fin S4096x50x100.rank)
  bcast_S1x50x100_S4096x50x100_0_1_2 : S1x50x100.BroadcastsInDim S4096x50x100 (![0, 1, 2] : Fin 3 → Fin S4096x50x100.rank)
  dot_S600x100_S4096x50x100_S600x4096x50_1_2_0_01_n_n_wf : DotDims.WF S600x100 S4096x50x100 S600x4096x50 [1] [2] [0] [0, 1] [] []

variable [Facts₀]

def dot_S600x100_S4096x50x100_S600x4096x50_1_2_0_01_n_n : DotDims S600x100 S4096x50x100 S600x4096x50 where
  lhsContracting := [1]
  rhsContracting := [2]
  lhsNonContracting := [0]
  rhsNonContracting := [0, 1]
  lhsBatch := []
  rhsBatch := []
  wf := dot_S600x100_S4096x50x100_S600x4096x50_1_2_0_01_n_n_wf

class Facts : Prop extends Facts₀ where

variable [Facts]
-- ==== Proof.CpSpec.lean ====
/-
  The CP (canonical polyadic) reconstruction of a rank-100 decomposition with factor matrices A [600, 100],
  B [4096, 100], C [50, 100]:

      out (i, j, k) = Σ_p A (i, p) · (B (j, p) · C (k, p)),

  each term grouped as the factor A times the Khatri–Rao entry B·C, over the extended reals. Two spellings of the same
  numbers: over the three axes (i, j, k), and with the last two fused into one axis n = j · 50 + k of extent
  4096 · 50 = 204800 (so j = n / 50 and k = n % 50). Reading the fused array at the row-major position of (j, k) gives
  the three-axis one: `cpFused_at`.
-/
import Idealize.ShloMosaic.PureOps.Ideal
import Idealize.ShloMosaic.Lib.ValueIdx

noncomputable section

namespace Cert.CpSpec

open Idealize.ShloMosaic Idealize.ShloMosaic.ValueIdx
open scoped BigOperators

/-- The reconstruction over the axes (i, j, k). -/
def cp (A : FVec Ideal ⟨2, ![600, 100]⟩ .f32) (B : FVec Ideal ⟨2, ![4096, 100]⟩ .f32) (C : FVec Ideal ⟨2, ![50, 100]⟩ .f32) :
    FVec Ideal ⟨3, ![600, 4096, 50]⟩ .f32 :=
  fun i => ∑ p : Fin 100, A (ix2 (i 0) p) * (B (ix2 (i 1) p) * C (ix2 (i 2) p))

/-- The row of B a fused column n belongs to: n / 50. -/
def rowOf (n : Fin 204800) : Fin 4096 := ⟨n.val / 50, by have := n.isLt; omega⟩
/-- The row of C a fused column n belongs to: n % 50. -/
def colOf (n : Fin 204800) : Fin 50 := ⟨n.val % 50, Nat.mod_lt _ (by decide)⟩

/-- The reconstruction with (j, k) fused into n = j · 50 + k. -/
def cpFused (A : FVec Ideal ⟨2, ![600, 100]⟩ .f32) (B : FVec Ideal ⟨2, ![4096, 100]⟩ .f32) (C : FVec Ideal ⟨2, ![50, 100]⟩ .f32) :
    FVec Ideal ⟨2, ![600, 204800]⟩ .f32 :=
  fun i => ∑ p : Fin 100, A (ix2 (i 0) p) * (B (ix2 (rowOf (i 1)) p) * C (ix2 (colOf (i 1)) p))

/-- The fused array at row i and column j · 50 + k is the three-axis array at (i, j, k). -/
theorem cpFused_at (A : FVec Ideal ⟨2, ![600, 100]⟩ .f32) (B : FVec Ideal ⟨2, ![4096, 100]⟩ .f32) (C : FVec Ideal ⟨2, ![50, 100]⟩ .f32)
    (i : Fin 600) (j : Fin 4096) (k : Fin 50) (n : Fin 204800) (hn : n.val = j.val * 50 + k.val) :
    cpFused A B C (ix2 i n) = cp A B C (ix3 i j k) := by
  have hj : rowOf n = j := Fin.ext (by show n.val / 50 = j.val; have := k.isLt; omega)
  have hk : colOf n = k := Fin.ext (by show n.val % 50 = k.val; have := k.isLt; omega)
  show (∑ p : Fin 100, A (ix2 i p) * (B (ix2 (rowOf n) p) * C (ix2 (colOf n) p))) = ∑ p : Fin 100, A (ix2 i p) * (B (ix2 j p) * C (ix2 k p))
  rw [hj, hk]

end Cert.CpSpec

end
-- ==== Proof.RefIsCp.lean ====
/-
  The reference computes the CP reconstruction.

  The reference builds the Khatri–Rao array KR (j, k, p) = B (j, p) · C (k, p) by two broadcasts each of B and C and one
  product, then contracts A's columns against KR's last axis. Read at an index (i, j, k) at the extended reals, the
  contraction is the sum over p of A (i, p) · KR (j, k, p); each broadcast reads its operand at the coordinates it keeps,
  so KR (j, k, p) is B (j, p) · C (k, p) and the whole is `cp A B C (i, j, k)`.
-/
import proofs.«145841_j42571715837961_2_alg».proof.Proof.Gen.ReferenceIdeal.Read
import proofs.«145841_j42571715837961_2_alg».proof.Proof.CpSpec

noncomputable section

namespace Cert.RefIsCp

open Idealize.ShloMosaic Idealize.ShloMosaic.ValueIdx Cert.ReferenceIdeal Cert.ReferenceIdeal.Read Cert.CpSpec
open scoped BigOperators

/-- The contraction's left operand index at (i, ·, ·) and p is A's (i, p). -/
theorem left_idx (i : S600x4096x50.Idx) (p : Fin 100) : lidx_main_v5 i p = ix2 (i 0) p :=
  funext fun a => Fin.ext (by match a with | ⟨0, _⟩ => rfl | ⟨1, _⟩ => rfl)

/-- Through the two broadcasts of B, the Khatri–Rao index (j, k, p) reads B at (j, p). -/
theorem b_idx (i : S600x4096x50.Idx) (p : Fin 100) : idx_main_v0 (idx_main_v2 (ridx_main_v5 i p)) = ix2 (i 1) p :=
  funext fun a => Fin.ext (by match a with | ⟨0, _⟩ => rfl | ⟨1, _⟩ => rfl)

/-- Through the two broadcasts of C, the Khatri–Rao index (j, k, p) reads C at (k, p). -/
theorem c_idx (i : S600x4096x50.Idx) (p : Fin 100) : idx_main_v1 (idx_main_v3 (ridx_main_v5 i p)) = ix2 (i 2) p :=
  funext fun a => Fin.ext (by match a with | ⟨0, _⟩ => rfl | ⟨1, _⟩ => rfl)

/-- The reference's result, as a function of its three arguments, is the CP reconstruction. -/
theorem ref_eq (A : FVec Ideal S600x100 .f32) (B : FVec Ideal S4096x100 .f32) (C : FVec Ideal S50x100 .f32) :
    val_main_v5 (F := Ideal) A B C = cp A B C := by
  funext i
  rw [val_main_v5_apply]
  unfold cp
  refine Finset.sum_congr rfl fun p _ => ?_
  rw [val_main_v4_apply, val_main_v2_apply, val_main_v0_apply, val_main_v3_apply, val_main_v1_apply,
    left_idx, b_idx, c_idx, Ideal.mulf_def]
  rfl

end Cert.RefIsCp

end
-- ==== Proof.LibMatmulNT.lean ====
/-
  A matrix product against a transposed right operand, into a zero accumulator, read at an entry.

  For a dot whose dimension numbers contract the left operand's columns against the right operand's COLUMNS, with no
  batch axis — `[M, K] × [N, K] → [M, N]`, the product `lhs · rhsᵀ` — the product accumulated into the zero splat is,
  at the extended reals, the textbook sum: entry `(p, c)` is the sum over `k` of `lhs (p, k) · rhs (c, k)`. The
  dimension numbers enter only through four coordinate facts about the dot's operand indices (which a literal record
  proves by evaluating its membership tests) and the fact that exactly one axis, of extent `K`, is contracted; the
  lemma is general in the extents, the element types and the contraction precision, so it serves every such product of
  a kernel body (scores of queries against keys, a projection by a weight stored output-channel first).
-/
import Idealize.ShloMosaic.PureOps.Ideal.Laws
import Idealize.ShloMosaic.Lib.ValueIdx

noncomputable section

namespace Cert.LibMatmulNT

open Idealize.ShloMosaic Idealize.ShloMosaic.ValueIdx
open scoped BigOperators

/-- Entry `(p, c)` of `lhs · rhsᵀ` accumulated into zero is `Σ k, lhs (p, k) · rhs (c, k)`: the dot's sum over its
    one-axis contraction index, re-indexed along the bijection of that index with `Fin K`, each operand index then
    identified by its two coordinates. -/
theorem matmul_nt_zero_ix2 {M K N : ℕ} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (lhs : FVec Ideal ⟨2, ![M, K]⟩ φ₁) (rhs : FVec Ideal ⟨2, ![N, K]⟩ φ₂) (p : Fin M) (c : Fin N) :
    matmul D prec lhs rhs (constant ⟨2, ![M, N]⟩ .f32 0x00000000#32) (ix2 p c)
      = ∑ k : Fin K, lhs (ix2 p k) * rhs (ix2 c k) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.LibMatmulNT

end
-- ==== Proof.LibStretch.lean ====
/-
  A rank-2 array repeated along a new axis of a rank-3 shape, read at an index.

  Two forms, general in the extents and in the element type: an [a, b] array given a TRAILING unit axis and repeated
  along it to [a, b, n] reads at (i, j, k) its entry (i, j); an [a, n] array given a MIDDLE unit axis and repeated
  along it to [a, b, n] reads at (i, j, k) its entry (i, k). (What `v[:, :, None]` and `v[:, None, :]` broadcast
  against a rank-3 block lower to: a shape cast that inserts the unit axis, then a broadcast.) In each the unit
  axis adds nothing to the row-major position, and the broadcast reads coordinate 0 on it.
-/
import Idealize.ShloMosaic.Lib.Pipeline.Value
import Idealize.ShloMosaic.Lib.ValueIdx

noncomputable section

namespace Cert.LibStretch

open Idealize.ShloMosaic Idealize.ShloMosaic.ValueIdx

section Stretch
variable {α : Type}

/-- An `[a, b]` array given a trailing unit axis and repeated along it to `[a, b, n]` reads, at `(i, j, k)`, the
    operand at `(i, j)`: the unit axis contributes nothing to the row-major position, and the broadcast reads `0` on it. -/
theorem stretchLast_apply {a b n : ℕ} (v : (⟨2, ![a, b]⟩ : Shape).Idx → α)
    (h : (⟨2, ![a, b]⟩ : Shape).ShapeCasts ⟨3, ![a, b, 1]⟩)
    (h' : (⟨3, ![a, b, 1]⟩ : Shape).Broadcasts ⟨3, ![a, b, n]⟩) (i : Fin a) (j : Fin b) (k : Fin n) :
    broadcastTo ⟨3, ![a, b, n]⟩ (shapeCast ⟨3, ![a, b, 1]⟩ v h) h' (ix3 i j k) = v (ix2 i j) := by
  refine (broadcastTo_apply _ h' (ix3 i j k) (ix3 i j (0 : Fin 1)) fun ax => ?_).trans ?_
  · match ax with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => rfl
  · exact shapeCast_apply v h _ _ (by
      rw [Shape.rowMajor_val_two, Shape.rowMajor_val_three]
      show i.val * b + j.val = (i.val * b + j.val) * 1 + 0
      omega)

/-- An `[a, n]` array given a middle unit axis and repeated along it to `[a, b, n]` reads, at `(i, j, k)`, the
    operand at `(i, k)`. -/
theorem stretchMiddle_apply {a b n : ℕ} (v : (⟨2, ![a, n]⟩ : Shape).Idx → α)
    (h : (⟨2, ![a, n]⟩ : Shape).ShapeCasts ⟨3, ![a, 1, n]⟩)
    (h' : (⟨3, ![a, 1, n]⟩ : Shape).Broadcasts ⟨3, ![a, b, n]⟩) (i : Fin a) (j : Fin b) (k : Fin n) :
    broadcastTo ⟨3, ![a, b, n]⟩ (shapeCast ⟨3, ![a, 1, n]⟩ v h) h' (ix3 i j k) = v (ix2 i k) := by
  refine (broadcastTo_apply _ h' (ix3 i j k) (ix3 i (0 : Fin 1) k) fun ax => ?_).trans ?_
  · match ax with
    | ⟨0, _⟩ =>
      show i.val = if a = 1 then 0 else i.val
      split
      · have := i.isLt; omega
      · rfl
    | ⟨1, _⟩ => rfl
    | ⟨2, _⟩ =>
      show k.val = if n = 1 then 0 else k.val
      split
      · have := k.isLt; omega
      · rfl
  · exact shapeCast_apply v h _ _ (by
      rw [Shape.rowMajor_val_two, Shape.rowMajor_val_three]
      show i.val * n + k.val = (i.val * 1 + 0) * n + k.val
      rw [Nat.mul_one, Nat.add_zero])

end Stretch

end Cert.LibStretch

end
-- ==== Proof.LibLeadAxis.lean ====
/-
  A rank-2 array repeated along a new LEADING axis of a rank-3 shape, read at an index.

  A [b, n] array given a leading unit axis ([b, n] → [1, b, n]) and repeated along it to [a, b, n] reads at (i, j, k)
  its entry (j, k): the unit axis adds nothing to the row-major position, and the broadcast reads coordinate 0 on it.
  (What `v[None, :, :]` broadcast against a rank-3 block lowers to: a shape cast that inserts the unit axis, then a
  broadcast.) General in the extents and in the element type.
-/
import Idealize.ShloMosaic.Lib.Pipeline.Value
import Idealize.ShloMosaic.Lib.ValueIdx

noncomputable section

namespace Cert.LibLeadAxis

open Idealize.ShloMosaic Idealize.ShloMosaic.ValueIdx

/-- A `[b, n]` array given a leading unit axis and repeated along it to `[a, b, n]` reads, at `(i, j, k)`, the operand
    at `(j, k)`. -/
theorem stretchLead_apply {α : Type} {a b n : ℕ} (v : (⟨2, ![b, n]⟩ : Shape).Idx → α)
    (h : (⟨2, ![b, n]⟩ : Shape).ShapeCasts ⟨3, ![1, b, n]⟩)
    (h' : (⟨3, ![1, b, n]⟩ : Shape).Broadcasts ⟨3, ![a, b, n]⟩) (i : Fin a) (j : Fin b) (k : Fin n) :
    broadcastTo ⟨3, ![a, b, n]⟩ (shapeCast ⟨3, ![1, b, n]⟩ v h) h' (ix3 i j k) = v (ix2 j k) := by
  refine (broadcastTo_apply _ h' (ix3 i j k) (ix3 (0 : Fin 1) j k) fun ax => ?_).trans ?_
  · match ax with
    | ⟨0, _⟩ => rfl
    | ⟨1, _⟩ =>
      show j.val = if b = 1 then 0 else j.val
      split
      · have := j.isLt; omega
      · rfl
    | ⟨2, _⟩ =>
      show k.val = if n = 1 then 0 else k.val
      split
      · have := k.isLt; omega
      · rfl
  · exact shapeCast_apply v h _ _ (by
      rw [Shape.rowMajor_val_two, Shape.rowMajor_val_three]
      show j.val * n + k.val = (0 * b + j.val) * n + k.val
      rw [Nat.zero_mul, Nat.zero_add])

end Cert.LibLeadAxis

end
-- ==== Proof.KhatriRaoTile.lean ====
/-
  One tile of the kernel's body, read at an entry.

  The body holds all of A (600 rows), a tile of 64 rows of B, and all of C (50 rows). It forms the Khatri–Rao tile
  KR (jj, k, p) = B_tile (jj, p) · C (k, p) over [64, 50, 100] — B_tile given a middle unit axis and repeated along it, C a
  leading unit axis and repeated along it —, flattens (jj, k) row-major into q = jj · 50 + k (a [3200, 100] matrix), and
  multiplies A by that matrix's transpose into a zero accumulator. So the tile's entry (r, q) is
  Σ_p A (r, p) · (B_tile (q / 50, p) · C (q % 50, p)).
-/
import proofs.«145841_j42571715837961_2_alg».proof.Proof.Gen.KernelIdeal.Skeleton
import proofs.«145841_j42571715837961_2_alg».proof.Proof.LibMatmulNT
import proofs.«145841_j42571715837961_2_alg».proof.Proof.LibStretch
import proofs.«145841_j42571715837961_2_alg».proof.Proof.LibLeadAxis

noncomputable section

namespace Cert.KhatriRaoTile

open Idealize.ShloMosaic Idealize.ShloMosaic.ValueIdx Cert.KernelIdeal Cert.KernelIdeal.Gen
open scoped BigOperators

/-- The dot's dimension numbers: A's columns against the flattened tile's columns, nothing batched. -/
local notation "DD" => dot_S600x100_S3200x100_S600x3200_1_1_0_0_n_n

theorem lhs0 (i : S600x3200.Idx) (q : (DD).contr.Idx) : ((DD).lhsIdx i q 0).val = (i 0).val := by
  unfold DotDims.lhsIdx
  rw [dif_neg (show ¬(0 : Fin S600x100.rank) ∈ (DD).lhsBatch by decide), dif_pos (show (0 : Fin S600x100.rank) ∈ (DD).lhsNonContracting by decide)]
  rfl
theorem lhs1 (i : S600x3200.Idx) (q : (DD).contr.Idx) : ((DD).lhsIdx i q 1).val = (q ⟨0, by decide⟩).val :=
  (DD).lhsIdx_val_of_single rfl i q
theorem rhs0 (i : S600x3200.Idx) (q : (DD).contr.Idx) : ((DD).rhsIdx i q 0).val = (i 1).val := by
  unfold DotDims.rhsIdx
  rw [dif_neg (show ¬(0 : Fin S3200x100.rank) ∈ (DD).rhsBatch by decide), dif_pos (show (0 : Fin S3200x100.rank) ∈ (DD).rhsNonContracting by decide)]
  rfl
theorem rhs1 (i : S600x3200.Idx) (q : (DD).contr.Idx) : ((DD).rhsIdx i q 1).val = (q ⟨0, by decide⟩).val :=
  (DD).rhsIdx_val_of_single rfl i q

/-- The B-row a flattened tile row q belongs to. -/
def tileRow (q : Fin 3200) : Fin 64 := ⟨q.val / 50, by have := q.isLt; omega⟩
/-- The C-row a flattened tile row q belongs to. -/
def tileCol (q : Fin 3200) : Fin 50 := ⟨q.val % 50, Nat.mod_lt _ (by decide)⟩

/-- The flattened Khatri–Rao tile at (q, p) is B_tile (q / 50, p) · C (q % 50, p): the flattening reads the rank-3 tile
    at the index whose row-major position is q · 100 + p, namely (q / 50, q % 50, p); there the product is entrywise, and
    each repeated factor reads its operand at the coordinates it keeps. -/
theorem tile_apply (x1 : FVec Ideal S64x100 .f32) (x2 : FVec Ideal S50x100 .f32) (q : Fin 3200) (p : Fin 100) :
    shapeCast S3200x100 (mulf (F := Ideal) (φ := .f32) (broadcastTo S64x50x100 (shapeCast S64x1x100 x1 Facts₀.shapeCasts_S64x100_S64x1x100) Facts₀.broadcasts_S64x1x100_S64x50x100)
        (broadcastTo S64x50x100 (shapeCast S1x50x100 x2 Facts₀.shapeCasts_S50x100_S1x50x100) Facts₀.broadcasts_S1x50x100_S64x50x100))
      Facts₀.shapeCasts_S64x50x100_S3200x100 (ix2 q p)
      = x1 (ix2 (tileRow q) p) * x2 (ix2 (tileCol q) p) := by
  refine (shapeCast_apply _ Facts₀.shapeCasts_S64x50x100_S3200x100 (ix2 q p) (ix3 (tileRow q) (tileCol q) p) ?_).trans ?_
  · rw [Shape.rowMajor_val_two, Shape.rowMajor_val_three]
    show ((q.val / 50) * 50 + q.val % 50) * 100 + p.val = q.val * 100 + p.val
    have := Nat.div_add_mod q.val 50
    omega
  · rw [mulf_apply]
    exact congrArg₂ (· * ·) (Cert.LibStretch.stretchMiddle_apply x1 _ _ (tileRow q) (tileCol q) p)
      (Cert.LibLeadAxis.stretchLead_apply x2 _ _ (tileRow q) (tileCol q) p)

/-- The body's stored value at (r, q): Σ_p A (r, p) · (B_tile (q / 50, p) · C (q % 50, p)). -/
theorem pay_apply (x0 : Vec Ideal S600x100 .f32) (x1 : Vec Ideal S64x100 .f32) (x2 : Vec Ideal S50x100 .f32)
    (r : Fin 600) (q : Fin 3200) :
    k0_pay1 (F := Ideal) x0 x1 x2 (ix2 r q)
      = ∑ p : Fin 100, x0 (ix2 r p) * (x1 (ix2 (tileRow q) p) * x2 (ix2 (tileCol q) p)) := by
  unfold k0_pay1
  refine (Cert.LibMatmulNT.matmul_nt_zero_ix2 (DD) (some .fp32) rfl rfl lhs0 lhs1 rhs0 rhs1 x0 _ r q).trans ?_
  exact Finset.sum_congr rfl fun p _ => congrArg (x0 (ix2 r p) * ·) (tile_apply x1 x2 q p)

end Cert.KhatriRaoTile

end
-- ==== Proof.FusedArray.lean ====
/-
  The array the region leaves: the CP reconstruction with its last two axes fused.

  The grid has 64 points; point t holds all of A, rows 64·t … 64·t + 63 of B and all of C, and writes columns
  3200·t … 3200·t + 3199 of the [600, 204800] result. Column n = 3200·t + q of the result belongs to B-row
  n / 50 = 64·t + q / 50 — row q / 50 of the tile — and to C-row n % 50 = q % 50, so what point t writes is exactly its
  block of `cpFused A B C`. The 64 blocks tile the columns (the point covering column n is n / 3200), so the whole
  array ends at `cpFused A B C`.
-/
import proofs.«145841_j42571715837961_2_alg».proof.Proof.Gen.KernelIdeal.Frame
import proofs.«145841_j42571715837961_2_alg».proof.Proof.KhatriRaoTile
import proofs.«145841_j42571715837961_2_alg».proof.Proof.CpSpec
import Idealize.ShloMosaic.Lib.Pipeline.Value
import Idealize.ShloMosaic.Lib.Tactic

noncomputable section

namespace Cert.FusedArray

open Idealize.ShloMosaic Idealize.ShloMosaic.TcCoe Idealize.SL.Sem Idealize.ShloMosaic.ValueIdx
open Idealize.ShloMosaic.Pipeline (Dat)
open Cert.KernelIdeal Cert.KernelIdeal.Gen Cert.CpSpec Cert.KhatriRaoTile
open scoped BigOperators

variable (m : (ℓ : Loc nD τ sig) → Buf (Elt Ideal) ℓ)

theorem hz : (![0, 0] : Fin 2 → Nat) = fun _ => 0 := funext fun a => by fin_cases a <;> rfl

/-- The block indices at a point, decided over the grid: A's and C's blocks are their whole arrays, B's row block is
    the result's column block, and the result's row block is the only one. -/
theorem idx_facts : ∀ t : Fin cfg0.N,
    win0_0.index t (0 : Fin 2) = 0 ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) ≤ 63 :=
  (by decide +kernel : ∀ t : Fin grid0.N, _)

/-- Every column block of the result is some point's. -/
theorem idx_onto : ∀ q : Fin 64, ∃ t : Fin cfg0.N, win0_3.index t = ![0, q.val] :=
  (by decide +kernel : ∀ q : Fin 64, ∃ t : Fin grid0.N, win0_3.index t = ![0, q.val])

/-- A's block at any point is A. -/
theorem a_block (c : Dev nD) (t : Fin cfg0.N) (x k : S600x100.Idx) (h0 : (k 0).val = (x 0).val) (h1 : (k 1).val = (x 1).val) :
    (iblk m c 0 t : Vec Ideal S600x100 .f32) x = (V m c main_arg0 : S600x100.Idx → Elt Ideal .f32) k := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 600 + 1 * (x 0).val = (k 0).val; rw [e0, h0]; omega
  | ⟨1, _⟩ => show win0_0.index t (1 : Fin 2) * 100 + 1 * (x 1).val = (k 1).val; rw [e1, h1]; omega

/-- B's block at point t is rows 64·T … 64·T + 63 of B, T the result's column block at t. -/
theorem b_block (c : Dev nD) (t : Fin cfg0.N) (x : S64x100.Idx) (k : S4096x100.Idx)
    (h0 : (k 0).val = win0_3.index t (1 : Fin 2) * 64 + (x 0).val) (h1 : (k 1).val = (x 1).val) :
    (iblk m c 1 t : Vec Ideal S64x100 .f32) x = (V m c main_arg1 : S4096x100.Idx → Elt Ideal .f32) k := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 64 + 1 * (x 0).val = (k 0).val; rw [e0, h0]; omega
  | ⟨1, _⟩ => show win0_1.index t (1 : Fin 2) * 100 + 1 * (x 1).val = (k 1).val; rw [e1, h1]; omega

/-- C's block at any point is C. -/
theorem c_block (c : Dev nD) (t : Fin cfg0.N) (x k : S50x100.Idx) (h0 : (k 0).val = (x 0).val) (h1 : (k 1).val = (x 1).val) :
    (iblk m c 2 t : Vec Ideal S50x100 .f32) x = (V m c main_arg2 : S50x100.Idx → Elt Ideal .f32) k := by
  obtain ⟨-, -, -, -, e0, e1, -⟩ := idx_facts t
  unfold iblk
  rw [View.read_apply]
  show V m c main_arg2 _ = V m c main_arg2 _
  congr 1
  funext a
  apply Fin.ext
  match a with
  | ⟨0, _⟩ => show win0_2.index t (0 : Fin 2) * 50 + 1 * (x 0).val = (k 0).val; rw [e0, h0]; omega
  | ⟨1, _⟩ => show win0_2.index t (1 : Fin 2) * 100 + 1 * (x 1).val = (k 1).val; rw [e1, h1]; omega

/-- The tile point t computes, at (r, q), is `cpFused A B C` at row r and column 3200·T + q. -/
theorem tile_entry (c : Dev nD) (t : Fin cfg0.N) (j : S600x3200.Idx) (i : S600x204800.Idx)
    (hi0 : (i 0).val = (j 0).val) (hi1 : (i 1).val = win0_3.index t (1 : Fin 2) * 3200 + (j 1).val) :
    k0_pay1 (F := Ideal) (iblk m c 0 t) (iblk m c 1 t) (iblk m c 2 t) j
      = cpFused (V m c main_arg0) (V m c main_arg1) (V m c main_arg2) i := by
  obtain ⟨r, q, rfl⟩ : ∃ (r : Fin 600) (q : Fin 3200), j = ix2 r q := ⟨j 0, j 1, eq_ix2 j⟩
  refine (pay_apply (iblk m c 0 t) (iblk m c 1 t) (iblk m c 2 t) r q).trans ?_
  unfold cpFused
  refine Finset.sum_congr rfl fun p _ => ?_
  have hq : q.val < 3200 := q.isLt
  have hb : (rowOf (i 1)).val = win0_3.index t (1 : Fin 2) * 64 + (tileRow q).val := by
    show (i 1).val / 50 = win0_3.index t (1 : Fin 2) * 64 + q.val / 50
    rw [hi1]; show (win0_3.index t (1 : Fin 2) * 3200 + q.val) / 50 = _; omega
  have hc : (colOf (i 1)).val = (tileCol q).val := by
    show (i 1).val % 50 = q.val % 50
    rw [hi1]; show (win0_3.index t (1 : Fin 2) * 3200 + q.val) % 50 = _; omega
  exact congrArg₂ (· * ·) (a_block m c t (ix2 r p) (ix2 (i 0) p) hi0 rfl)
    (congrArg₂ (· * ·) (b_block m c t (ix2 (tileRow q) p) (ix2 (rowOf (i 1)) p) hb rfl)
      (c_block m c t (ix2 (tileCol q) p) (ix2 (colOf (i 1)) p) hc rfl))

/-- What point t writes back is block t of `cpFused` of the argument arrays as the region finds them. -/
theorem flushed_eq (c : Dev nD) (t : Fin cfg0.N) :
    (dats m 0 c).flushed 3 t
      = ((cfg0.win 3).blk t).view.read (Elt Ideal) (cpFused (V m c main_arg0) (V m c main_arg1) (V m c main_arg2)) := by
  show (cfg0.win 3).cut (grid0.coords t) ((dats m 0 c).after 3 t) = _
  rw [after0_3]
  unfold out0_3
  rw [View.canon_unit_zero hz]
  simp only [View.ld_unit_zero (S := S600x100) hz, View.ld_unit_zero (S := S64x100) hz, View.ld_unit_zero (S := S50x100) hz]
  obtain ⟨-, -, -, -, -, -, e0, -⟩ := idx_facts t
  funext j
  show k0_pay1 (F := Ideal) (iblk m c 0 t) (iblk m c 1 t) (iblk m c 2 t) j
    = cpFused (V m c main_arg0) (V m c main_arg1) (V m c main_arg2) (((cfg0.win 3).blk t).view.emb j)
  refine tile_entry m c t j _ ?_ ?_
  · show win0_3.index t (0 : Fin 2) * 600 + 1 * (j 0).val = (j 0).val; rw [e0]; omega
  · show win0_3.index t (1 : Fin 2) * 3200 + 1 * (j 1).val = win0_3.index t (1 : Fin 2) * 3200 + (j 1).val; omega

/-- An index of the result is in point t's block iff each coordinate is in the block's range on its axis. -/
theorem mem_blk (t : Fin cfg0.N) (i : S600x204800.Idx) :
    i ∈ ((cfg0.win 3).blk t).view.set ↔ ∀ a : Fin 2, win0_3.index t a * S600x3200.size a ≤ (i a).val ∧ (i a).val < win0_3.index t a * S600x3200.size a + S600x3200.size a := by
  show i ∈ ((View.whole main_v0).slice (win0_3.rect t)).set ↔ _
  rw [View.set_slice_whole, Rect.mem_set_unit]
  exact Iff.rfl

/-- Every index of the result is in the block of the point whose column block is its column divided by 3200. -/
theorem cover (i : S600x204800.Idx) : ∃ t : Fin cfg0.N, (cfg0.win 3).flush t = true ∧ i ∈ ((cfg0.win 3).blk t).view.set := by
  have hi0 : (i 0).val < 600 := idx2_lt0 i
  have hi1 : (i 1).val < 204800 := idx2_lt1 i
  obtain ⟨t, ht⟩ := idx_onto ⟨(i 1).val / 3200, by omega⟩
  have q0 : win0_3.index t (0 : Fin 2) = 0 := congrFun ht 0
  have q1 : win0_3.index t (1 : Fin 2) = (i 1).val / 3200 := congrFun ht 1
  refine ⟨t, flush0_3 t, ?_⟩
  rw [mem_blk]
  intro a
  match a with
  | ⟨0, _⟩ => show win0_3.index t (0 : Fin 2) * 600 ≤ (i 0).val ∧ (i 0).val < win0_3.index t (0 : Fin 2) * 600 + 600; omega
  | ⟨1, _⟩ => show win0_3.index t (1 : Fin 2) * 3200 ≤ (i 1).val ∧ (i 1).val < win0_3.index t (1 : Fin 2) * 3200 + 3200; omega

/-- The result array after the region: the fused CP reconstruction of the argument arrays. -/
theorem final (c : Dev nD) :
    (dats m 0 c).arrAt 3 cfg0.N = cpFused (V m c main_arg0) (V m c main_arg1) (V m c main_arg2) :=
  (dats m 0 c).arrAt_eq_of_cover 3 _ (fun t _ => flushed_eq m c t) cover

end Cert.FusedArray

end
-- ==== Proof.Unfuse.lean ====
/-
  After the region the program reshapes the [600, 204800] array to [600, 4096, 50]: entry (i, j, k) of the result is the
  entry of the fused array whose row-major position is the same, row i and column j · 50 + k. The region left the fused
  CP reconstruction there, so the program's result is the reconstruction over the three axes — and the argument arrays end
  as they began.
-/
import proofs.«145841_j42571715837961_2_alg».proof.Proof.FusedArray
import Idealize.ShloMosaic.Lib.StableHlo.Run

noncomputable section

namespace Cert.Unfuse

open Idealize.ShloMosaic Idealize.ShloMosaic.TcCoe Idealize.SL.Sem Idealize.ShloMosaic.ValueIdx Idealize.ShloMosaic.StableHlo
open Cert.KernelIdeal Cert.KernelIdeal.Gen Cert.CpSpec

variable (m : (ℓ : Loc nD τ sig) → Buf (Elt Ideal) ℓ) (ρ : Dev nD → PrngReg)

/-- The fused array reshaped to three axes is the three-axis reconstruction: position ((i · 4096 + j) · 50 + k) of the
    result is position i · 204800 + (j · 50 + k) of the operand. -/
theorem unfuse (A : FVec Ideal S600x100 .f32) (B : FVec Ideal S4096x100 .f32) (C : FVec Ideal S50x100 .f32)
    (i : S600x4096x50.Idx) :
    shapeCast S600x4096x50 (cpFused A B C) Facts₀.shapeCasts_S600x204800_S600x4096x50 i = cp A B C i := by
  obtain ⟨a, j, k, rfl⟩ : ∃ (a : Fin 600) (j : Fin 4096) (k : Fin 50), i = ix3 a j k := ⟨i 0, i 1, i 2, eq_ix3 i⟩
  have hn : j.val * 50 + k.val < 204800 := by have := j.isLt; have := k.isLt; omega
  refine (shapeCast_apply _ Facts₀.shapeCasts_S600x204800_S600x4096x50 (ix3 a j k) (ix2 a ⟨j.val * 50 + k.val, hn⟩) ?_).trans
    (cpFused_at A B C a j k ⟨j.val * 50 + k.val, hn⟩ rfl)
  rw [Shape.rowMajor_val_two, Shape.rowMajor_val_three]
  show a.val * 204800 + (j.val * 50 + k.val) = (a.val * 4096 + j.val) * 50 + k.val
  omega

/-- What the program's result buffer holds after the reshape that follows the region. -/
theorem tail_eq (c : Dev nD) :
    Pipeline.afterTail₀ cfgs (dats m) 0 (V0 m) [hostOps1] c main_v1
      = cp (m ((c : Thread nD τ).loc main_arg0)) (m ((c : Thread nD τ).loc main_arg1)) (m ((c : Thread nD τ).loc main_arg2)) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = cpFused (V m c main_arg0) (V m c main_arg1) (V m c main_arg2) :=
    (Pipeline.withArrays_arr spec0 launch0.win.arr_inj c _ _ 3).trans (Cert.FusedArray.final m c)
  funext i
  show shapeCast S600x4096x50 (Pipeline.withArrays (cfgs 0).spec c (V0 m c) (fun w => (dats m 0 c).arrAt w (cfgs 0).N) (Proc.devRef .tc main_v0))
    Facts₀.shapeCasts_S600x204800_S600x4096x50 i = _
  rw [hw]
  exact unfuse (V m c main_arg0) (V m c main_arg1) (V m c main_arg2) i

/-- The kernel program's run, read: every weakly fair execution terminates with the result at the CP reconstruction of
    the argument arrays, and the argument arrays unchanged. -/
theorem run : θ_run defs (onTc (τ := τ) (main (F := Ideal))) ⟨m, fun _ => 0, ρ⟩ fun r => ∀ c : Dev nD,
      r.2.mem ((c.tc : Thread nD τ).loc main_v1)
        = cp (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Unfuse

end
-- ==== Proof.lean ====
/-
  A CP (canonical polyadic) reconstruction, out (i, j, k) = Σ_p A (i, p) · B (j, p) · C (k, p) with A [600, 100],
  B [4096, 100], C [50, 100], computed two ways that agree over the extended reals, term by term.

  The reference forms the Khatri–Rao array KR (j, k, p) = B (j, p) · C (k, p) and contracts A's columns against KR's
  last axis: out (i, j, k) = Σ_p A (i, p) · (B (j, p) · C (k, p)) (Proof/RefIsCp.lean, against Proof/CpSpec.lean).

  The kernel fuses (j, k) into one axis n = j · 50 + k and walks it in 64 tiles of 3200 columns. A tile holds all of A,
  64 rows of B and all of C; it forms the same Khatri–Rao products for its rows, flattens them to a [3200, 100] matrix and
  multiplies A by that matrix's transpose into zero: entry (r, q) of the tile is Σ_p A (r, p) · (B_tile (q / 50, p) · C (q % 50, p))
  (Proof/KhatriRaoTile.lean). Column 3200·t + q of the fused array belongs to B-row 64·t + q / 50 and C-row q % 50, so each
  tile is its block of the fused reconstruction and the 64 tiles cover it (Proof/FusedArray.lean). The reshape after the
  region reads the fused array at the same row-major position, which gives back the three axes (Proof/Unfuse.lean).

  Both sides are the same sum of the same products in the same grouping; no law of arithmetic is used beyond reading each
  operation at an index, so the inputs' finiteness is never opened. The idealization rewrote nothing, so `preserves` is
  trivial. The frames of the two kernel programs are the generated ones; the reference's frame is its generated run with
  the result dropped.
-/
import proofs.«145841_j42571715837961_2_alg».proof.Defs
import proofs.«145841_j42571715837961_2_alg».proof.Proof.Gen.Kernel
import proofs.«145841_j42571715837961_2_alg».proof.Proof.Gen.Kernel.Skeleton
import proofs.«145841_j42571715837961_2_alg».proof.Proof.Gen.Kernel.Launch
import proofs.«145841_j42571715837961_2_alg».proof.Proof.Gen.Kernel.Points
import proofs.«145841_j42571715837961_2_alg».proof.Proof.Gen.Kernel.Frame
import proofs.«145841_j42571715837961_2_alg».proof.Proof.Gen.KernelIdeal
import proofs.«145841_j42571715837961_2_alg».proof.Proof.Gen.KernelIdeal.Skeleton
import proofs.«145841_j42571715837961_2_alg».proof.Proof.Gen.KernelIdeal.Launch
import proofs.«145841_j42571715837961_2_alg».proof.Proof.Gen.KernelIdeal.Points
import proofs.«145841_j42571715837961_2_alg».proof.Proof.Gen.KernelIdeal.Frame
import proofs.«145841_j42571715837961_2_alg».proof.Proof.Gen.ReferenceIdeal
import proofs.«145841_j42571715837961_2_alg».proof.Proof.Gen.ReferenceIdeal.Run
import proofs.«145841_j42571715837961_2_alg».proof.Proof.Gen.ReferenceIdeal.Read
import proofs.«145841_j42571715837961_2_alg».proof.Proof.Gen.Pre_finite_inputs
import proofs.«145841_j42571715837961_2_alg».proof.Proof.RefIsCp
import proofs.«145841_j42571715837961_2_alg».proof.Proof.Unfuse
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- Both programs end at the CP reconstruction of their arguments: the kernel's by its tiles and the reshape, the
    reference's by its contraction read at an index; the arguments agree. -/
theorem algebraic : Cert.algebraic_KernelIdeal_ReferenceIdeal := by
  intro m ρ m' ρ' _ hagree
  refine ⟨fun c => Cert.CpSpec.cp (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Unfuse.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.RefIsCp.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
